-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v38)) (v1 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_v39) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3000000 : Shape := ⟨1, ![3000000]⟩
abbrev S100000x64 : Shape := ⟨2, ![100000, 64]⟩
abbrev S50000x64 : Shape := ⟨2, ![50000, 64]⟩
abbrev S_ : Shape := ⟨0, ![]⟩

class Facts : Prop where
  bcast_S_S3000000 : S_.BroadcastsInDim S3000000 (![] : Fin 0 → Fin S3000000.rank)
  reducesTo_S3000000_S_d0 : S3000000.ReducesTo [0] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S50000x64 : S_.BroadcastsInDim S50000x64 (![] : Fin 0 → Fin S50000x64.rank)
  reducesTo_S50000x64_S_d0_1 : S50000x64.ReducesTo [0, 1] S_

variable [Facts]

def fn {F : FTy → Type} [FloatOps F] (main_arg0 : IVec S3000000 32) (main_arg1 : IVec S3000000 32) (main_arg2 : FVec F S3000000 .f32) (main_arg3 : FVec F S100000x64 .f32) (main_arg4 : FVec F S50000x64 .f32) : IVec S_ 1 :=
  let main_v0 : FVec F S3000000 .f32 := Host.absf main_arg2
  let main_cst : FVec F S_ .f32 := constant S_ .f32 0x7F800000#32
  let main_v1 : FVec F S3000000 .f32 := broadcastInDim S3000000 ![] bcast_S_S3000000 main_cst
  let main_v2 : IVec S3000000 1 := cmpf .olt main_v0 main_v1
  let main_c : IVec S_ 1 := constantI S_ 1 1#1
  let main_v3 : IVec S_ 1 := (fun x v => Host.reduce IntOp.andi x v reducesTo_S3000000_S_d0 h_S_) main_v2 main_c
  let main_v4 : FVec F S100000x64 .f32 := Host.absf main_arg3
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S50000x64 .f32 := Host.absf main_arg4
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  main_v13
-- ==== Kernel.lean ====
abbrev S3000000 : Shape := ⟨1, ![3000000]⟩
abbrev S100000x64 : Shape := ⟨2, ![100000, 64]⟩
abbrev S50000x64 : Shape := ⟨2, ![50000, 64]⟩
abbrev S150000x64 : Shape := ⟨2, ![150000, 64]⟩
abbrev S_ : Shape := ⟨0, ![]⟩
abbrev S3000000x1 : Shape := ⟨2, ![3000000, 1]⟩
abbrev S3000000x64 : Shape := ⟨2, ![3000000, 64]⟩
abbrev S8000x1 : Shape := ⟨2, ![8000, 1]⟩
abbrev S8000x64 : Shape := ⟨2, ![8000, 64]⟩
abbrev S5000x64 : Shape := ⟨2, ![5000, 64]⟩

abbrev nBuf : Space → Nat
  | .hbm => 54
  | .vmem => 28
  | .smem => 0
  | _ => 0

abbrev bufTy : (tb : Table) → Fin (tcTables nBuf tb) → BufTy
  | .hbm, ⟨0, _⟩ => ⟨S3000000, .i32⟩
  | .hbm, ⟨1, _⟩ => ⟨S3000000, .i32⟩
  | .hbm, ⟨2, _⟩ => ⟨S3000000, .f32⟩
  | .hbm, ⟨3, _⟩ => ⟨S100000x64, .f32⟩
  | .hbm, ⟨4, _⟩ => ⟨S50000x64, .f32⟩
  | .hbm, ⟨5, _⟩ => ⟨S150000x64, .f32⟩
  | .hbm, ⟨6, _⟩ => ⟨S_, .i32⟩
  | .hbm, ⟨7, _⟩ => ⟨S3000000, .i32⟩
  | .hbm, ⟨8, _⟩ => ⟨S3000000, .i1⟩
  | .hbm, ⟨9, _⟩ => ⟨S_, .i32⟩
  | .hbm, ⟨10, _⟩ => ⟨S3000000, .i32⟩
  | .hbm, ⟨11, _⟩ => ⟨S3000000, .i32⟩
  | .hbm, ⟨12, _⟩ => ⟨S3000000, .i32⟩
  | .hbm, ⟨13, _⟩ => ⟨S3000000x1, .i32⟩
  | .hbm, ⟨14, _⟩ => ⟨S3000000x64, .f32⟩
  | .hbm, ⟨15, _⟩ => ⟨S3000000x1, .f32⟩
  | .hbm, ⟨16, _⟩ => ⟨S3000000x64, .f32⟩
  | .hbm, ⟨17, _⟩ => ⟨S_, .f32⟩
  | .hbm, ⟨18, _⟩ => ⟨S150000x64, .f32⟩
  | .hbm, ⟨19, _⟩ => ⟨S3000000x1, .i32⟩
  | .hbm, ⟨20, _⟩ => ⟨S150000x64, .f32⟩
  | .hbm, ⟨21, _⟩ => ⟨S_, .i32⟩
  | .hbm, ⟨22, _⟩ => ⟨S3000000, .i32⟩
  | .hbm, ⟨23, _⟩ => ⟨S3000000, .i1⟩
  | .hbm, ⟨24, _⟩ => ⟨S_, .i32⟩
  | .hbm, ⟨25, _⟩ => ⟨S3000000, .i32⟩
  | .hbm, ⟨26, _⟩ => ⟨S3000000, .i32⟩
  | .hbm, ⟨27, _⟩ => ⟨S3000000, .i32⟩
  | .hbm, ⟨28, _⟩ => ⟨S3000000x1, .i32⟩
  | .hbm, ⟨29, _⟩ => ⟨S3000000x64, .f32⟩
  | .hbm, ⟨30, _⟩ => ⟨S3000000x1, .f32⟩
  | .hbm, ⟨31, _⟩ => ⟨S3000000x64, .f32⟩
  | .hbm, ⟨32, _⟩ => ⟨S_, .f32⟩
  | .hbm, ⟨33, _⟩ => ⟨S150000x64, .f32⟩
  | .hbm, ⟨34, _⟩ => ⟨S3000000x1, .i32⟩
  | .hbm, ⟨35, _⟩ => ⟨S150000x64, .f32⟩
  | .hbm, ⟨36, _⟩ => ⟨S_, .i32⟩
  | .hbm, ⟨37, _⟩ => ⟨S3000000, .i32⟩
  | .hbm, ⟨38, _⟩ => ⟨S3000000, .i1⟩
  | .hbm, ⟨39, _⟩ => ⟨S_, .i32⟩
  | .hbm, ⟨40, _⟩ => ⟨S3000000, .i32⟩
  | .hbm, ⟨41, _⟩ => ⟨S3000000, .i32⟩
  | .hbm, ⟨42, _⟩ => ⟨S3000000, .i32⟩
  | .hbm, ⟨43, _⟩ => ⟨S3000000x1, .i32⟩
  | .hbm, ⟨44, _⟩ => ⟨S3000000x64, .f32⟩
  | .hbm, ⟨45, _⟩ => ⟨S3000000x1, .f32⟩
  | .hbm, ⟨46, _⟩ => ⟨S3000000x64, .f32⟩
  | .hbm, ⟨47, _⟩ => ⟨S_, .f32⟩
  | .hbm, ⟨48, _⟩ => ⟨S150000x64, .f32⟩
  | .hbm, ⟨49, _⟩ => ⟨S3000000x1, .i32⟩
  | .hbm, ⟨50, _⟩ => ⟨S150000x64, .f32⟩
  | .hbm, ⟨51, _⟩ => ⟨S150000x64, .f32⟩
  | .hbm, ⟨52, _⟩ => ⟨S100000x64, .f32⟩
  | .hbm, ⟨53, _⟩ => ⟨S50000x64, .f32⟩
  | .local _ .vmem, ⟨0, _⟩ => ⟨S8000x1, .f32⟩
  | .local _ .vmem, ⟨1, _⟩ => ⟨S8000x1, .f32⟩
  | .local _ .vmem, ⟨2, _⟩ => ⟨S8000x64, .f32⟩
  | .local _ .vmem, ⟨3, _⟩ => ⟨S8000x64, .f32⟩
  | .local _ .vmem, ⟨4, _⟩ => ⟨S8000x64, .f32⟩
  | .local _ .vmem, ⟨5, _⟩ => ⟨S8000x64, .f32⟩
  | .local _ .vmem, ⟨6, _⟩ => ⟨S8000x1, .f32⟩
  | .local _ .vmem, ⟨7, _⟩ => ⟨S8000x1, .f32⟩
  | .local _ .vmem, ⟨8, _⟩ => ⟨S8000x64, .f32⟩
  | .local _ .vmem, ⟨9, _⟩ => ⟨S8000x64, .f32⟩
  | .local _ .vmem, ⟨10, _⟩ => ⟨S8000x64, .f32⟩
  | .local _ .vmem, ⟨11, _⟩ => ⟨S8000x64, .f32⟩
  | .local _ .vmem, ⟨12, _⟩ => ⟨S8000x1, .f32⟩
  | .local _ .vmem, ⟨13, _⟩ => ⟨S8000x1, .f32⟩
  | .local _ .vmem, ⟨14, _⟩ => ⟨S8000x64, .f32⟩
  | .local _ .vmem, ⟨15, _⟩ => ⟨S8000x64, .f32⟩
  | .local _ .vmem, ⟨16, _⟩ => ⟨S8000x64, .f32⟩
  | .local _ .vmem, ⟨17, _⟩ => ⟨S8000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | _, _ => ⟨S3000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_4 : Ref sig .tc := ⟨.hbm, 36, rfl⟩
abbrev main_v25 : Ref sig .tc := ⟨.hbm, 37, rfl⟩
abbrev main_v26 : Ref sig .tc := ⟨.hbm, 38, rfl⟩
abbrev main_c_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![375], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![375], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![375], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![30], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  concatenates_S100000x64_S50000x64_S150000x64_d0 : Shape.Concatenates [S100000x64, S50000x64] S150000x64 0
  bcast_S_S3000000 : S_.BroadcastsInDim S3000000 (![] : Fin 0 → Fin S3000000.rank)
  bcast_S3000000_S3000000x1_0 : S3000000.BroadcastsInDim S3000000x1 (![0] : Fin 1 → Fin S3000000x1.rank)
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  broadcasts_S8000x1_S8000x64 : S8000x1.Broadcasts S8000x64
  bcast_S_S150000x64 : S_.BroadcastsInDim S150000x64 (![] : Fin 0 → Fin S150000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  slices_S150000x64_S100000x64_0_0 : S150000x64.Slices ![0, 0] S100000x64
  slices_S150000x64_S50000x64_100000_0 : S150000x64.Slices ![100000, 0] S50000x64
  gather_S150000x64_S3000000x1_S3000000x64_1_0_n_n_0_1_164_wf : GatherDims.WF S150000x64 S3000000x1 S3000000x64 [1] [0] [] [0] [] 1 ![1, 64]
  scatter_S150000x64_S3000000x1_S3000000x64_1_0_0_1_wf : ScatterDims.WF S150000x64 S3000000x1 S3000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x1.size a ≤ S3000000x1.size a
  hwx0_0 : ∀ i : grid0.Coords, EltTy.bits .f32 = 32 ∨ (Rect.block (s := S3000000x1) S8000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S3000000x64.size a
  hwx0_1 : ∀ i : grid0.Coords, EltTy.bits .f32 = 32 ∨ (Rect.block (s := S3000000x64) S8000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S3000000x64.size a
  hwx0_2 : ∀ i : grid0.Coords, EltTy.bits .f32 = 32 ∨ (Rect.block (s := S3000000x64) S8000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x1.size a ≤ S3000000x1.size a
  hwx1_0 : ∀ i : grid1.Coords, EltTy.bits .f32 = 32 ∨ (Rect.block (s := S3000000x1) S8000x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x64.size a ≤ S3000000x64.size a
  hwx1_1 : ∀ i : grid1.Coords, EltTy.bits .f32 = 32 ∨ (Rect.block (s := S3000000x64) S8000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x64.size a ≤ S3000000x64.size a
  hwx1_2 : ∀ i : grid1.Coords, EltTy.bits .f32 = 32 ∨ (Rect.block (s := S3000000x64) S8000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x1.size a ≤ S3000000x1.size a
  hwx2_0 : ∀ i : grid2.Coords, EltTy.bits .f32 = 32 ∨ (Rect.block (s := S3000000x1) S8000x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x64.size a ≤ S3000000x64.size a
  hwx2_1 : ∀ i : grid2.Coords, EltTy.bits .f32 = 32 ∨ (Rect.block (s := S3000000x64) S8000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x64.size a ≤ S3000000x64.size a
  hwx2_2 : ∀ i : grid2.Coords, EltTy.bits .f32 = 32 ∨ (Rect.block (s := S3000000x64) S8000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S150000x64.size a
  hwx3_0 : ∀ i : grid3.Coords, EltTy.bits .f32 = 32 ∨ (Rect.block (s := S150000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S150000x64.size a
  hwx3_1 : ∀ i : grid3.Coords, EltTy.bits .f32 = 32 ∨ (Rect.block (s := S150000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S150000x64.size a
  hwx3_2 : ∀ i : grid3.Coords, EltTy.bits .f32 = 32 ∨ (Rect.block (s := S150000x64) S5000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S150000x64.size a
  hwx3_3 : ∀ i : grid3.Coords, EltTy.bits .f32 = 32 ∨ (Rect.block (s := S150000x64) S5000x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S150000x64.size a
  hwx3_4 : ∀ i : grid3.Coords, EltTy.bits .f32 = 32 ∨ (Rect.block (s := S150000x64) S5000x64.size (cc3_transform_4 i) (hinb3_4 i)).WholeWords (EltTy.packing .f32)

variable [Facts₀]

def gather_S150000x64_S3000000x1_S3000000x64_1_0_n_n_0_1_164 : GatherDims S150000x64 S3000000x1 S3000000x64 where
  offsetDims := [1]
  collapsedSliceDims := [0]
  operandBatchingDims := []
  startIndicesBatchingDims := []
  startIndexMap := [0]
  indexVectorDim := 1
  sliceSizes := ![1, 64]
  wf := gather_S150000x64_S3000000x1_S3000000x64_1_0_n_n_0_1_164_wf
def scatter_S150000x64_S3000000x1_S3000000x64_1_0_0_1 : ScatterDims S150000x64 S3000000x1 S3000000x64 where
  updateWindowDims := [1]
  insertedWindowDims := [0]
  scatterDimsToOperandDims := [0]
  indexVectorDim := 1
  wf := scatter_S150000x64_S3000000x1_S3000000x64_1_0_0_1_wf

abbrev win0_0 : Pipeline.Window sig grid0 :=
  Pipeline.Window.ofSpec (Memref.whole main_v8) S8000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S8000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v20) S8000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S8000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S8000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v32) S8000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S8000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v33) S8000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v0) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v24) S5000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v36) S5000x64.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v37) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S3000000 : Shape := ⟨1, ![3000000]⟩
abbrev S100000x64 : Shape := ⟨2, ![100000, 64]⟩
abbrev S50000x64 : Shape := ⟨2, ![50000, 64]⟩
abbrev S150000x64 : Shape := ⟨2, ![150000, 64]⟩
abbrev S3000000x1 : Shape := ⟨2, ![3000000, 1]⟩
abbrev S_ : Shape := ⟨0, ![]⟩
abbrev S3000000x64 : Shape := ⟨2, ![3000000, 64]⟩

abbrev nBuf : Space → Nat
  | .hbm => 62
  | .vmem => 0
  | .smem => 0
  | _ => 0

abbrev bufTy : (tb : Table) → Fin (tcTables nBuf tb) → BufTy
  | .hbm, ⟨0, _⟩ => ⟨S3000000, .i32⟩
  | .hbm, ⟨1, _⟩ => ⟨S3000000, .i32⟩
  | .hbm, ⟨2, _⟩ => ⟨S3000000, .f32⟩
  | .hbm, ⟨3, _⟩ => ⟨S100000x64, .f32⟩
  | .hbm, ⟨4, _⟩ => ⟨S50000x64, .f32⟩
  | .hbm, ⟨5, _⟩ => ⟨S150000x64, .f32⟩
  | .hbm, ⟨6, _⟩ => ⟨S3000000x1, .f32⟩
  | .hbm, ⟨7, _⟩ => ⟨S_, .i32⟩
  | .hbm, ⟨8, _⟩ => ⟨S3000000, .i32⟩
  | .hbm, ⟨9, _⟩ => ⟨S3000000, .i1⟩
  | .hbm, ⟨10, _⟩ => ⟨S_, .i32⟩
  | .hbm, ⟨11, _⟩ => ⟨S3000000, .i32⟩
  | .hbm, ⟨12, _⟩ => ⟨S3000000, .i32⟩
  | .hbm, ⟨13, _⟩ => ⟨S3000000, .i32⟩
  | .hbm, ⟨14, _⟩ => ⟨S3000000x1, .i32⟩
  | .hbm, ⟨15, _⟩ => ⟨S3000000x64, .f32⟩
  | .hbm, ⟨16, _⟩ => ⟨S3000000x64, .f32⟩
  | .hbm, ⟨17, _⟩ => ⟨S3000000x64, .f32⟩
  | .hbm, ⟨18, _⟩ => ⟨S_, .f32⟩
  | .hbm, ⟨19, _⟩ => ⟨S150000x64, .f32⟩
  | .hbm, ⟨20, _⟩ => ⟨S3000000x1, .i32⟩
  | .hbm, ⟨21, _⟩ => ⟨S150000x64, .f32⟩
  | .hbm, ⟨22, _⟩ => ⟨S150000x64, .f32⟩
  | .hbm, ⟨23, _⟩ => ⟨S3000000x1, .f32⟩
  | .hbm, ⟨24, _⟩ => ⟨S_, .i32⟩
  | .hbm, ⟨25, _⟩ => ⟨S3000000, .i32⟩
  | .hbm, ⟨26, _⟩ => ⟨S3000000, .i1⟩
  | .hbm, ⟨27, _⟩ => ⟨S_, .i32⟩
  | .hbm, ⟨28, _⟩ => ⟨S3000000, .i32⟩
  | .hbm, ⟨29, _⟩ => ⟨S3000000, .i32⟩
  | .hbm, ⟨30, _⟩ => ⟨S3000000, .i32⟩
  | .hbm, ⟨31, _⟩ => ⟨S3000000x1, .i32⟩
  | .hbm, ⟨32, _⟩ => ⟨S3000000x64, .f32⟩
  | .hbm, ⟨33, _⟩ => ⟨S3000000x64, .f32⟩
  | .hbm, ⟨34, _⟩ => ⟨S3000000x64, .f32⟩
  | .hbm, ⟨35, _⟩ => ⟨S_, .f32⟩
  | .hbm, ⟨36, _⟩ => ⟨S150000x64, .f32⟩
  | .hbm, ⟨37, _⟩ => ⟨S3000000x1, .i32⟩
  | .hbm, ⟨38, _⟩ => ⟨S150000x64, .f32⟩
  | .hbm, ⟨39, _⟩ => ⟨S150000x64, .f32⟩
  | .hbm, ⟨40, _⟩ => ⟨S3000000x1, .f32⟩
  | .hbm, ⟨41, _⟩ => ⟨S_, .i32⟩
  | .hbm, ⟨42, _⟩ => ⟨S3000000, .i32⟩
  | .hbm, ⟨43, _⟩ => ⟨S3000000, .i1⟩
  | .hbm, ⟨44, _⟩ => ⟨S_, .i32⟩
  | .hbm, ⟨45, _⟩ => ⟨S3000000, .i32⟩
  | .hbm, ⟨46, _⟩ => ⟨S3000000, .i32⟩
  | .hbm, ⟨47, _⟩ => ⟨S3000000, .i32⟩
  | .hbm, ⟨48, _⟩ => ⟨S3000000x1, .i32⟩
  | .hbm, ⟨49, _⟩ => ⟨S3000000x64, .f32⟩
  | .hbm, ⟨50, _⟩ => ⟨S3000000x64, .f32⟩
  | .hbm, ⟨51, _⟩ => ⟨S3000000x64, .f32⟩
  | .hbm, ⟨52, _⟩ => ⟨S_, .f32⟩
  | .hbm, ⟨53, _⟩ => ⟨S150000x64, .f32⟩
  | .hbm, ⟨54, _⟩ => ⟨S3000000x1, .i32⟩
  | .hbm, ⟨55, _⟩ => ⟨S150000x64, .f32⟩
  | .hbm, ⟨56, _⟩ => ⟨S150000x64, .f32⟩
  | .hbm, ⟨57, _⟩ => ⟨S_, .f32⟩
  | .hbm, ⟨58, _⟩ => ⟨S150000x64, .f32⟩
  | .hbm, ⟨59, _⟩ => ⟨S150000x64, .f32⟩
  | .hbm, ⟨60, _⟩ => ⟨S100000x64, .f32⟩
  | .hbm, ⟨61, _⟩ => ⟨S50000x64, .f32⟩
  | _, _ => ⟨S3000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_4 : Ref sig .tc := ⟨.hbm, 41, rfl⟩
abbrev main_v30 : Ref sig .tc := ⟨.hbm, 42, rfl⟩
abbrev main_v31 : Ref sig .tc := ⟨.hbm, 43, rfl⟩
abbrev main_c_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]

class Facts₀ : Prop where
  concatenates_S100000x64_S50000x64_S150000x64_d0 : Shape.Concatenates [S100000x64, S50000x64] S150000x64 0
  bcast_S3000000_S3000000x1_0 : S3000000.BroadcastsInDim S3000000x1 (![0] : Fin 1 → Fin S3000000x1.rank)
  bcast_S_S3000000 : S_.BroadcastsInDim S3000000 (![] : Fin 0 → Fin S3000000.rank)
  bcast_S3000000x1_S3000000x64_0_1 : S3000000x1.BroadcastsInDim S3000000x64 (![0, 1] : Fin 2 → Fin S3000000x64.rank)
  bcast_S_S150000x64 : S_.BroadcastsInDim S150000x64 (![] : Fin 0 → Fin S150000x64.rank)
  slices_S150000x64_S100000x64_0_0 : S150000x64.Slices ![0, 0] S100000x64
  slices_S150000x64_S50000x64_100000_0 : S150000x64.Slices ![100000, 0] S50000x64
  gather_S150000x64_S3000000x1_S3000000x64_1_0_n_n_0_1_164_wf : GatherDims.WF S150000x64 S3000000x1 S3000000x64 [1] [0] [] [0] [] 1 ![1, 64]
  scatter_S150000x64_S3000000x1_S3000000x64_1_0_0_1_wf : ScatterDims.WF S150000x64 S3000000x1 S3000000x64 [1] [0] [0] 1

variable [Facts₀]

def gather_S150000x64_S3000000x1_S3000000x64_1_0_n_n_0_1_164 : GatherDims S150000x64 S3000000x1 S3000000x64 where
  offsetDims := [1]
  collapsedSliceDims := [0]
  operandBatchingDims := []
  startIndicesBatchingDims := []
  startIndexMap := [0]
  indexVectorDim := 1
  sliceSizes := ![1, 64]
  wf := gather_S150000x64_S3000000x1_S3000000x64_1_0_n_n_0_1_164_wf
def scatter_S150000x64_S3000000x1_S3000000x64_1_0_0_1 : ScatterDims S150000x64 S3000000x1 S3000000x64 where
  updateWindowDims := [1]
  insertedWindowDims := [0]
  scatterDimsToOperandDims := [0]
  indexVectorDim := 1
  wf := scatter_S150000x64_S3000000x1_S3000000x64_1_0_0_1_wf

class Facts : Prop extends Facts₀ where

variable [Facts]
-- ==== Proof.KernelRun.lean ====
/-
  The whole program's run with its two results in the post.

  The program is nine segments: five stretches of host operations and, between them, four pipelined kernel
  regions. The buffer contents at each segment boundary are a fold from the launch memory: a host stretch
  applies its operations in order, a region replaces each of its window arrays by what its write-backs leave
  and keeps every other buffer. This module runs the segments from the launch memory and reads, against the
  final state, the two result buffers and the five argument buffers at the last boundary's contents.
-/
import proofs.«129277_j53566832116067_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from a memory with zero counters terminates without a fault,
    and in its final state each result buffer holds the last boundary's contents at that buffer, while each
    argument buffer holds what it was launched with. -/
theorem run_last : θ_run defs (onTc (τ := τ) (main (F := F))) ⟨m, fun _ => 0, ρ⟩ (fun r => ∀ c : Dev nD,
      r.2.mem ((c.tc : Thread nD τ).loc main_v38) = W9 m ρ c (Proc.devRef .tc main_v38)
      ∧ r.2.mem ((c.tc : Thread nD τ).loc main_v39) = W9 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v38 (by decide)),
       h c _ (mem_uc main_v39 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c)⟩)

end Cert.KernelIdeal.RunValue

end
-- ==== Proof.RegionSpec.lean ====
/-
  What the two kinds of kernel region compute, as whole-array functions.

  A scaling region multiplies row e of an [E, 64] array by the single entry of row e of an [E, 1] column.
  The pooling region adds four [N, 64] arrays entry by entry, left to right, and multiplies by one constant.
-/
import proofs.«129277_j53566832116067_2_alg».proof.KernelIdeal

noncomputable section

namespace Cert.KernelIdeal.RegionValue

open Cert.KernelIdeal Idealize.ShloMosaic Idealize.SL.Sem

variable {F : FTy → Type} [FloatOps F]

/-- The offset of a rectangle that starts at the origin of a rank-2 shape. -/
theorem origin2 : (![0, 0] : Fin 2 → Nat) = fun _ => 0 := funext fun a => by fin_cases a <;> rfl

/-- The entry of the [E, 1] column that scales entry i of the [E, 64] array: same row, column 0. -/
abbrev edgeCol (i : S3000000x64.Idx) : S3000000x1.Idx := fun a => match a with
  | ⟨0, _⟩ => ⟨(i 0).val, (i 0).isLt⟩
  | ⟨1, _⟩ => ⟨0, Nat.one_pos⟩

/-- Row e of g scaled by v[e, 0]. -/
abbrev scaled (v : S3000000x1.Idx → Elt F .f32) (g : S3000000x64.Idx → Elt F .f32) : S3000000x64.Idx → Elt F .f32 :=
  fun i => FloatOps.mulf (v (edgeCol i)) (g i)

/-- ((a + b) + c) + d, entry by entry, times the constant whose bit pattern is 0x3E800000. -/
abbrev pooled (a b c d : S150000x64.Idx → Elt F .f32) : S150000x64.Idx → Elt F .f32 :=
  fun i => FloatOps.mulf (FloatOps.addf (FloatOps.addf (FloatOps.addf (a i) (b i)) (c i)) (d i)) (Scalar.ofBits .f32 0x3E800000#32)

end Cert.KernelIdeal.RegionValue

end
-- ==== Proof.ProgramSpec.lean ====
/-
  The whole computation as one function of the five argument arrays.

  The node table is the user table followed by the item table. One propagation layer gathers, for every edge e, the
  row cols[e] of the current table (a negative index counted from the end), scales it by vals[e], and adds it into
  row rows[e] of a table of zeros. Three layers give x1, x2, x3 from x0; the result is ((x0 + x1) + x2) + x3 times the
  constant 0x3E800000, cut into its first 100000 rows and its last 50000 rows.
-/
import proofs.«129277_j53566832116067_2_alg».proof.Proof.Gen.KernelIdeal
import proofs.«129277_j53566832116067_2_alg».proof.Proof.RegionSpec

noncomputable section

namespace Cert.KernelIdeal.RegionValue

open Cert.KernelIdeal Cert.KernelIdeal.Gen Idealize.ShloMosaic Idealize.SL.Sem

variable {F : FTy → Type} [FloatOps F]

/-- The node table: users' rows, then items' rows. -/
def nodeTable (a3 : (⟨S100000x64, .f32⟩ : BufTy).Contents (Elt F)) (a4 : (⟨S50000x64, .f32⟩ : BufTy).Contents (Elt F)) :
    (⟨S150000x64, .f32⟩ : BufTy).Contents (Elt F) :=
  concatenate S150000x64 0 [⟨S100000x64, a3⟩, ⟨S50000x64, a4⟩] concatenates_S100000x64_S50000x64_S150000x64_d0

/-- The source-node column: cols, with a negative entry moved up by the table's height. -/
def srcCol (a1 : (⟨S3000000, .i32⟩ : BufTy).Contents (Elt F)) : (⟨S3000000x1, .i32⟩ : BufTy).Contents (Elt F) :=
  broadcastInDim S3000000x1 ![0] bcast_S3000000_S3000000x1_0
    (select (cmpi .slt a1 (broadcastInDim S3000000 ![] bcast_S_S3000000 (constantI S_ 32 0#32)))
      (addi a1 (broadcastInDim S3000000 ![] bcast_S_S3000000 (constantI S_ 32 150000#32))) a1)

/-- The edge weights as a column. -/
def weightCol (a2 : (⟨S3000000, .f32⟩ : BufTy).Contents (Elt F)) : (⟨S3000000x1, .f32⟩ : BufTy).Contents (Elt F) :=
  broadcastInDim S3000000x1 ![0] bcast_S3000000_S3000000x1_0 a2

/-- The destination-node column. -/
def dstCol (a0 : (⟨S3000000, .i32⟩ : BufTy).Contents (Elt F)) : (⟨S3000000x1, .i32⟩ : BufTy).Contents (Elt F) :=
  broadcastInDim S3000000x1 ![0] bcast_S3000000_S3000000x1_0 a0

/-- A table of zeros. -/
def zeroTable : (⟨S150000x64, .f32⟩ : BufTy).Contents (Elt F) :=
  broadcastInDim S150000x64 ![] bcast_S_S150000x64 (constant (F := F) S_ .f32 0x00000000#32)

/-- The rows of a table gathered along the edges' sources. -/
def gathered (a1 : (⟨S3000000, .i32⟩ : BufTy).Contents (Elt F)) (x : (⟨S150000x64, .f32⟩ : BufTy).Contents (Elt F)) :
    (⟨S3000000x64, .f32⟩ : BufTy).Contents (Elt F) :=
  Host.gather gather_S150000x64_S3000000x1_S3000000x64_1_0_n_n_0_1_164 x (srcCol a1)

/-- The per-edge messages: the gathered rows scaled by the edge weights. -/
def messages (a1 : (⟨S3000000, .i32⟩ : BufTy).Contents (Elt F)) (a2 : (⟨S3000000, .f32⟩ : BufTy).Contents (Elt F))
    (x : (⟨S150000x64, .f32⟩ : BufTy).Contents (Elt F)) : (⟨S3000000x64, .f32⟩ : BufTy).Contents (Elt F) :=
  scaled (weightCol a2) (gathered a1 x)

/-- One propagation layer: the messages added into their destination rows. -/
def layer (a0 a1 : (⟨S3000000, .i32⟩ : BufTy).Contents (Elt F)) (a2 : (⟨S3000000, .f32⟩ : BufTy).Contents (Elt F))
    (x : (⟨S150000x64, .f32⟩ : BufTy).Contents (Elt F)) : (⟨S150000x64, .f32⟩ : BufTy).Contents (Elt F) :=
  Host.scatterAdd scatter_S150000x64_S3000000x1_S3000000x64_1_0_0_1 zeroTable (dstCol a0) (messages a1 a2 x)

/-- The pooled table over the three layers. -/
def pooledTable (a0 a1 : (⟨S3000000, .i32⟩ : BufTy).Contents (Elt F)) (a2 : (⟨S3000000, .f32⟩ : BufTy).Contents (Elt F))
    (a3 : (⟨S100000x64, .f32⟩ : BufTy).Contents (Elt F)) (a4 : (⟨S50000x64, .f32⟩ : BufTy).Contents (Elt F)) :
    (⟨S150000x64, .f32⟩ : BufTy).Contents (Elt F) :=
  pooled (nodeTable a3 a4) (layer a0 a1 a2 (nodeTable a3 a4)) (layer a0 a1 a2 (layer a0 a1 a2 (nodeTable a3 a4)))
    (layer a0 a1 a2 (layer a0 a1 a2 (layer a0 a1 a2 (nodeTable a3 a4))))

/-- The users' rows of the pooled table. -/
def usersOut (a0 a1 : (⟨S3000000, .i32⟩ : BufTy).Contents (Elt F)) (a2 : (⟨S3000000, .f32⟩ : BufTy).Contents (Elt F))
    (a3 : (⟨S100000x64, .f32⟩ : BufTy).Contents (Elt F)) (a4 : (⟨S50000x64, .f32⟩ : BufTy).Contents (Elt F)) :
    (⟨S100000x64, .f32⟩ : BufTy).Contents (Elt F) :=
  extractStridedSlice S100000x64 ![0, 0] (pooledTable a0 a1 a2 a3 a4) slices_S150000x64_S100000x64_0_0

/-- The items' rows of the pooled table. -/
def itemsOut (a0 a1 : (⟨S3000000, .i32⟩ : BufTy).Contents (Elt F)) (a2 : (⟨S3000000, .f32⟩ : BufTy).Contents (Elt F))
    (a3 : (⟨S100000x64, .f32⟩ : BufTy).Contents (Elt F)) (a4 : (⟨S50000x64, .f32⟩ : BufTy).Contents (Elt F)) :
    (⟨S50000x64, .f32⟩ : BufTy).Contents (Elt F) :=
  extractStridedSlice S50000x64 ![100000, 0] (pooledTable a0 a1 a2 a3 a4) slices_S150000x64_S50000x64_100000_0

end Cert.KernelIdeal.RegionValue

end
-- ==== Proof.Scale0.lean ====
/-
  Region 0 (a scaling kernel over 375 grid points, 8000 rows per point): the [E, 64] array it writes is, entry by
  entry, the [E, 64] input scaled by the [E, 1] column, whatever the buffers hold when the region is entered.

  Point t reads rows 8000 t … 8000 t + 7999 of both inputs and writes the same rows of the output; the body's
  product at local index (r, l) is column[r, 0] · input[r, l]. The 375 blocks tile the output array.
-/
import proofs.«129277_j53566832116067_2_alg».proof.Proof.Gen.KernelIdeal.Frame
import proofs.«129277_j53566832116067_2_alg».proof.Proof.RegionSpec
import Idealize.ShloMosaic.Lib.Pipeline.Value

set_option maxRecDepth 16384

noncomputable section

namespace Cert.KernelIdeal.RegionValue

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))

/-- The body's product at a local index: the column's entry of that row times the input's entry. -/
theorem pay0_at (x0 : Vec F S8000x1 .f32) (x1 : Vec F S8000x64 .f32) (j : S8000x64.Idx) (k : S8000x1.Idx)
    (hk0 : (k 0).val = (j 0).val) (hk1 : (k 1).val = 0) : k0_pay1 x0 x1 j = FloatOps.mulf (x0 k) (x1 j) := by
  unfold k0_pay1
  show FloatOps.mulf (broadcastTo S8000x64 (shapeCast S8000x1 x0 shapeCasts_S8000x1_S8000x1) broadcasts_S8000x1_S8000x64 j)
    (shapeCast S8000x64 x1 shapeCasts_S8000x64_S8000x64 j) = _
  rw [shapeCast_self, shapeCast_self]
  rw [broadcastTo_apply x0 broadcasts_S8000x1_S8000x64 j k (fun a => match a with
    | ⟨0, _⟩ => by show (k 0).val = if (8000 : Nat) = 1 then 0 else (j 0).val; rw [if_neg (by decide)]; exact hk0
    | ⟨1, _⟩ => by show (k 1).val = if (1 : Nat) = 1 then 0 else (j 1).val; rw [if_pos rfl]; exact hk1)]

/-- The printed index maps, decided over the grid: every window's block at point t is block (t, 0). -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The row of the column that scales local row r of point t's block. -/
abbrev colAt0 (j : S8000x64.Idx) : S8000x1.Idx := fun a => match a with
  | ⟨0, _⟩ => ⟨(j 0).val, (j 0).isLt⟩
  | ⟨1, _⟩ => ⟨0, Nat.one_pos⟩

/-- What point t writes back is block t of the scaled array. -/
theorem flushed0_eq (c : Dev nD) (t : Fin cfg0.N) :
    (dat0 V c).flushed 2 t = ((cfg0.win 2).blk t).view.read (Elt F) (scaled (V c main_v8) (V c main_v7)) := by
  show (cfg0.win 2).cut (grid0.coords t) ((dat0 V c).after 2 t) = _
  rw [after0_2]
  unfold out0_2
  rw [View.canon_unit_zero origin2]
  simp only [View.ld_unit_zero (S := S8000x1) origin2, View.ld_unit_zero (S := S8000x64) origin2]
  obtain ⟨e0, e1, e2, e3, e4, e5⟩ := idx_facts0 t
  funext j
  show k0_pay1 (iblk0 V c 0 t) (iblk0 V c 1 t) j
    = FloatOps.mulf (V c main_v8 (edgeCol (((cfg0.win 2).blk t).view.emb j))) (V c main_v7 (((cfg0.win 2).blk t).view.emb j))
  refine (pay0_at (iblk0 V c 0 t) (iblk0 V c 1 t) j (colAt0 j) rfl rfl).trans ?_
  have h0 : ((cfg0.win 0).blk t).view.emb (colAt0 j) = edgeCol (((cfg0.win 2).blk t).view.emb j) := by
    funext a; apply Fin.ext
    match a with
    | ⟨0, _⟩ => show win0_0.index t (0 : Fin 2) * 8000 + 1 * (j 0).val = win0_2.index t (0 : Fin 2) * 8000 + 1 * (j 0).val; rw [e0, e4]
    | ⟨1, _⟩ => show win0_0.index t (1 : Fin 2) * 1 + 1 * 0 = 0; rw [e1]
  have h1 : ((cfg0.win 1).blk t).view.emb j = ((cfg0.win 2).blk t).view.emb j := by
    funext a; apply Fin.ext
    match a with
    | ⟨0, _⟩ => show win0_1.index t (0 : Fin 2) * 8000 + 1 * (j 0).val = win0_2.index t (0 : Fin 2) * 8000 + 1 * (j 0).val; rw [e2, e4]
    | ⟨1, _⟩ => show win0_1.index t (1 : Fin 2) * 64 + 1 * (j 1).val = win0_2.index t (1 : Fin 2) * 64 + 1 * (j 1).val; rw [e3, e5]
  show FloatOps.mulf (V c main_v8 (((cfg0.win 0).blk t).view.emb (colAt0 j))) (V c main_v7 (((cfg0.win 1).blk t).view.emb j)) = _
  rw [h0, h1]

/-- An index of the output array lies in point t's block iff each coordinate lies in the block's range. -/
theorem mem_blk0 (t : Fin cfg0.N) (i : S3000000x64.Idx) :
    i ∈ ((cfg0.win 2).blk t).view.set ↔ ∀ a : Fin 2, win0_2.index t a * S8000x64.size a ≤ (i a).val ∧ (i a).val < win0_2.index t a * S8000x64.size a + S8000x64.size a := by
  show i ∈ ((View.whole main_v9).slice (win0_2.rect t)).set ↔ _
  rw [View.set_slice_whole, Rect.mem_set_unit]
  exact Iff.rfl

/-- Every entry of the output array is written: row r by point r / 8000. -/
theorem cover0 (i : S3000000x64.Idx) :
    ∃ t : Fin cfg0.N, (cfg0.win 2).flush t = true ∧ i ∈ ((cfg0.win 2).blk t).view.set := by
  have hi0 : (i 0).val < 3000000 := (i 0).isLt
  have hi1 : (i 1).val < 64 := (i 1).isLt
  obtain ⟨t, ht⟩ : ∃ t : Fin cfg0.N, t.val = (i 0).val / 8000 :=
    ⟨⟨(i 0).val / 8000, by show (i 0).val / 8000 < grid0.N; rw [N_0]; omega⟩, rfl⟩
  obtain ⟨e0, e1, e2, e3, e4, e5⟩ := idx_facts0 t
  refine ⟨t, flush0_2 t, ?_⟩
  rw [mem_blk0]
  intro a
  match a with
  | ⟨0, _⟩ =>
    show win0_2.index t (0 : Fin 2) * 8000 ≤ (i 0).val ∧ (i 0).val < win0_2.index t (0 : Fin 2) * 8000 + 8000
    rw [e4, ht]; omega
  | ⟨1, _⟩ =>
    show win0_2.index t (1 : Fin 2) * 64 ≤ (i 1).val ∧ (i 1).val < win0_2.index t (1 : Fin 2) * 64 + 64
    rw [e5]; omega

/-- The output array after the region: the input scaled by the column, as the region found them. -/
theorem final0 (c : Dev nD) : (dat0 V c).arrAt 2 cfg0.N = scaled (V c main_v8) (V c main_v7) :=
  (dat0 V c).arrAt_eq_of_cover 2 (scaled (V c main_v8) (V c main_v7)) (fun t _ => flushed0_eq V c t) (fun i => cover0 i)

end Cert.KernelIdeal.RegionValue

end
-- ==== Proof.Scale1.lean ====
/-
  Region 1 (a scaling kernel over 375 grid points, 8000 rows per point): the [E, 64] array it writes is, entry by
  entry, the [E, 64] input scaled by the [E, 1] column, whatever the buffers hold when the region is entered.

  Point t reads rows 8000 t … 8000 t + 7999 of both inputs and writes the same rows of the output; the body's
  product at local index (r, l) is column[r, 0] · input[r, l]. The 375 blocks tile the output array.
-/
import proofs.«129277_j53566832116067_2_alg».proof.Proof.Gen.KernelIdeal.Frame
import proofs.«129277_j53566832116067_2_alg».proof.Proof.RegionSpec
import Idealize.ShloMosaic.Lib.Pipeline.Value

set_option maxRecDepth 16384

noncomputable section

namespace Cert.KernelIdeal.RegionValue

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))

/-- The body's product at a local index: the column's entry of that row times the input's entry. -/
theorem pay1_at (x0 : Vec F S8000x1 .f32) (x1 : Vec F S8000x64 .f32) (j : S8000x64.Idx) (k : S8000x1.Idx)
    (hk0 : (k 0).val = (j 0).val) (hk1 : (k 1).val = 0) : k1_pay1 x0 x1 j = FloatOps.mulf (x0 k) (x1 j) := by
  unfold k1_pay1
  show FloatOps.mulf (broadcastTo S8000x64 (shapeCast S8000x1 x0 shapeCasts_S8000x1_S8000x1) broadcasts_S8000x1_S8000x64 j)
    (shapeCast S8000x64 x1 shapeCasts_S8000x64_S8000x64 j) = _
  rw [shapeCast_self, shapeCast_self]
  rw [broadcastTo_apply x0 broadcasts_S8000x1_S8000x64 j k (fun a => match a with
    | ⟨0, _⟩ => by show (k 0).val = if (8000 : Nat) = 1 then 0 else (j 0).val; rw [if_neg (by decide)]; exact hk0
    | ⟨1, _⟩ => by show (k 1).val = if (1 : Nat) = 1 then 0 else (j 1).val; rw [if_pos rfl]; exact hk1)]

/-- The printed index maps, decided over the grid: every window's block at point t is block (t, 0). -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The row of the column that scales local row r of point t's block. -/
abbrev colAt1 (j : S8000x64.Idx) : S8000x1.Idx := fun a => match a with
  | ⟨0, _⟩ => ⟨(j 0).val, (j 0).isLt⟩
  | ⟨1, _⟩ => ⟨0, Nat.one_pos⟩

/-- What point t writes back is block t of the scaled array. -/
theorem flushed1_eq (c : Dev nD) (t : Fin cfg1.N) :
    (dat1 V c).flushed 2 t = ((cfg1.win 2).blk t).view.read (Elt F) (scaled (V c main_v20) (V c main_v19)) := by
  show (cfg1.win 2).cut (grid1.coords t) ((dat1 V c).after 2 t) = _
  rw [after1_2]
  unfold out1_2
  rw [View.canon_unit_zero origin2]
  simp only [View.ld_unit_zero (S := S8000x1) origin2, View.ld_unit_zero (S := S8000x64) origin2]
  obtain ⟨e0, e1, e2, e3, e4, e5⟩ := idx_facts1 t
  funext j
  show k1_pay1 (iblk1 V c 0 t) (iblk1 V c 1 t) j
    = FloatOps.mulf (V c main_v20 (edgeCol (((cfg1.win 2).blk t).view.emb j))) (V c main_v19 (((cfg1.win 2).blk t).view.emb j))
  refine (pay1_at (iblk1 V c 0 t) (iblk1 V c 1 t) j (colAt1 j) rfl rfl).trans ?_
  have h0 : ((cfg1.win 0).blk t).view.emb (colAt1 j) = edgeCol (((cfg1.win 2).blk t).view.emb j) := by
    funext a; apply Fin.ext
    match a with
    | ⟨0, _⟩ => show win1_0.index t (0 : Fin 2) * 8000 + 1 * (j 0).val = win1_2.index t (0 : Fin 2) * 8000 + 1 * (j 0).val; rw [e0, e4]
    | ⟨1, _⟩ => show win1_0.index t (1 : Fin 2) * 1 + 1 * 0 = 0; rw [e1]
  have h1 : ((cfg1.win 1).blk t).view.emb j = ((cfg1.win 2).blk t).view.emb j := by
    funext a; apply Fin.ext
    match a with
    | ⟨0, _⟩ => show win1_1.index t (0 : Fin 2) * 8000 + 1 * (j 0).val = win1_2.index t (0 : Fin 2) * 8000 + 1 * (j 0).val; rw [e2, e4]
    | ⟨1, _⟩ => show win1_1.index t (1 : Fin 2) * 64 + 1 * (j 1).val = win1_2.index t (1 : Fin 2) * 64 + 1 * (j 1).val; rw [e3, e5]
  show FloatOps.mulf (V c main_v20 (((cfg1.win 0).blk t).view.emb (colAt1 j))) (V c main_v19 (((cfg1.win 1).blk t).view.emb j)) = _
  rw [h0, h1]

/-- An index of the output array lies in point t's block iff each coordinate lies in the block's range. -/
theorem mem_blk1 (t : Fin cfg1.N) (i : S3000000x64.Idx) :
    i ∈ ((cfg1.win 2).blk t).view.set ↔ ∀ a : Fin 2, win1_2.index t a * S8000x64.size a ≤ (i a).val ∧ (i a).val < win1_2.index t a * S8000x64.size a + S8000x64.size a := by
  show i ∈ ((View.whole main_v21).slice (win1_2.rect t)).set ↔ _
  rw [View.set_slice_whole, Rect.mem_set_unit]
  exact Iff.rfl

/-- Every entry of the output array is written: row r by point r / 8000. -/
theorem cover1 (i : S3000000x64.Idx) :
    ∃ t : Fin cfg1.N, (cfg1.win 2).flush t = true ∧ i ∈ ((cfg1.win 2).blk t).view.set := by
  have hi0 : (i 0).val < 3000000 := (i 0).isLt
  have hi1 : (i 1).val < 64 := (i 1).isLt
  obtain ⟨t, ht⟩ : ∃ t : Fin cfg1.N, t.val = (i 0).val / 8000 :=
    ⟨⟨(i 0).val / 8000, by show (i 0).val / 8000 < grid1.N; rw [N_1]; omega⟩, rfl⟩
  obtain ⟨e0, e1, e2, e3, e4, e5⟩ := idx_facts1 t
  refine ⟨t, flush1_2 t, ?_⟩
  rw [mem_blk1]
  intro a
  match a with
  | ⟨0, _⟩ =>
    show win1_2.index t (0 : Fin 2) * 8000 ≤ (i 0).val ∧ (i 0).val < win1_2.index t (0 : Fin 2) * 8000 + 8000
    rw [e4, ht]; omega
  | ⟨1, _⟩ =>
    show win1_2.index t (1 : Fin 2) * 64 ≤ (i 1).val ∧ (i 1).val < win1_2.index t (1 : Fin 2) * 64 + 64
    rw [e5]; omega

/-- The output array after the region: the input scaled by the column, as the region found them. -/
theorem final1 (c : Dev nD) : (dat1 V c).arrAt 2 cfg1.N = scaled (V c main_v20) (V c main_v19) :=
  (dat1 V c).arrAt_eq_of_cover 2 (scaled (V c main_v20) (V c main_v19)) (fun t _ => flushed1_eq V c t) (fun i => cover1 i)

end Cert.KernelIdeal.RegionValue

end
-- ==== Proof.Scale2.lean ====
/-
  Region 2 (a scaling kernel over 375 grid points, 8000 rows per point): the [E, 64] array it writes is, entry by
  entry, the [E, 64] input scaled by the [E, 1] column, whatever the buffers hold when the region is entered.

  Point t reads rows 8000 t … 8000 t + 7999 of both inputs and writes the same rows of the output; the body's
  product at local index (r, l) is column[r, 0] · input[r, l]. The 375 blocks tile the output array.
-/
import proofs.«129277_j53566832116067_2_alg».proof.Proof.Gen.KernelIdeal.Frame
import proofs.«129277_j53566832116067_2_alg».proof.Proof.RegionSpec
import Idealize.ShloMosaic.Lib.Pipeline.Value

set_option maxRecDepth 16384

noncomputable section

namespace Cert.KernelIdeal.RegionValue

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))

/-- The body's product at a local index: the column's entry of that row times the input's entry. -/
theorem pay2_at (x0 : Vec F S8000x1 .f32) (x1 : Vec F S8000x64 .f32) (j : S8000x64.Idx) (k : S8000x1.Idx)
    (hk0 : (k 0).val = (j 0).val) (hk1 : (k 1).val = 0) : k2_pay1 x0 x1 j = FloatOps.mulf (x0 k) (x1 j) := by
  unfold k2_pay1
  show FloatOps.mulf (broadcastTo S8000x64 (shapeCast S8000x1 x0 shapeCasts_S8000x1_S8000x1) broadcasts_S8000x1_S8000x64 j)
    (shapeCast S8000x64 x1 shapeCasts_S8000x64_S8000x64 j) = _
  rw [shapeCast_self, shapeCast_self]
  rw [broadcastTo_apply x0 broadcasts_S8000x1_S8000x64 j k (fun a => match a with
    | ⟨0, _⟩ => by show (k 0).val = if (8000 : Nat) = 1 then 0 else (j 0).val; rw [if_neg (by decide)]; exact hk0
    | ⟨1, _⟩ => by show (k 1).val = if (1 : Nat) = 1 then 0 else (j 1).val; rw [if_pos rfl]; exact hk1)]

/-- The printed index maps, decided over the grid: every window's block at point t is block (t, 0). -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- The row of the column that scales local row r of point t's block. -/
abbrev colAt2 (j : S8000x64.Idx) : S8000x1.Idx := fun a => match a with
  | ⟨0, _⟩ => ⟨(j 0).val, (j 0).isLt⟩
  | ⟨1, _⟩ => ⟨0, Nat.one_pos⟩

/-- What point t writes back is block t of the scaled array. -/
theorem flushed2_eq (c : Dev nD) (t : Fin cfg2.N) :
    (dat2 V c).flushed 2 t = ((cfg2.win 2).blk t).view.read (Elt F) (scaled (V c main_v32) (V c main_v31)) := by
  show (cfg2.win 2).cut (grid2.coords t) ((dat2 V c).after 2 t) = _
  rw [after2_2]
  unfold out2_2
  rw [View.canon_unit_zero origin2]
  simp only [View.ld_unit_zero (S := S8000x1) origin2, View.ld_unit_zero (S := S8000x64) origin2]
  obtain ⟨e0, e1, e2, e3, e4, e5⟩ := idx_facts2 t
  funext j
  show k2_pay1 (iblk2 V c 0 t) (iblk2 V c 1 t) j
    = FloatOps.mulf (V c main_v32 (edgeCol (((cfg2.win 2).blk t).view.emb j))) (V c main_v31 (((cfg2.win 2).blk t).view.emb j))
  refine (pay2_at (iblk2 V c 0 t) (iblk2 V c 1 t) j (colAt2 j) rfl rfl).trans ?_
  have h0 : ((cfg2.win 0).blk t).view.emb (colAt2 j) = edgeCol (((cfg2.win 2).blk t).view.emb j) := by
    funext a; apply Fin.ext
    match a with
    | ⟨0, _⟩ => show win2_0.index t (0 : Fin 2) * 8000 + 1 * (j 0).val = win2_2.index t (0 : Fin 2) * 8000 + 1 * (j 0).val; rw [e0, e4]
    | ⟨1, _⟩ => show win2_0.index t (1 : Fin 2) * 1 + 1 * 0 = 0; rw [e1]
  have h1 : ((cfg2.win 1).blk t).view.emb j = ((cfg2.win 2).blk t).view.emb j := by
    funext a; apply Fin.ext
    match a with
    | ⟨0, _⟩ => show win2_1.index t (0 : Fin 2) * 8000 + 1 * (j 0).val = win2_2.index t (0 : Fin 2) * 8000 + 1 * (j 0).val; rw [e2, e4]
    | ⟨1, _⟩ => show win2_1.index t (1 : Fin 2) * 64 + 1 * (j 1).val = win2_2.index t (1 : Fin 2) * 64 + 1 * (j 1).val; rw [e3, e5]
  show FloatOps.mulf (V c main_v32 (((cfg2.win 0).blk t).view.emb (colAt2 j))) (V c main_v31 (((cfg2.win 1).blk t).view.emb j)) = _
  rw [h0, h1]

/-- An index of the output array lies in point t's block iff each coordinate lies in the block's range. -/
theorem mem_blk2 (t : Fin cfg2.N) (i : S3000000x64.Idx) :
    i ∈ ((cfg2.win 2).blk t).view.set ↔ ∀ a : Fin 2, win2_2.index t a * S8000x64.size a ≤ (i a).val ∧ (i a).val < win2_2.index t a * S8000x64.size a + S8000x64.size a := by
  show i ∈ ((View.whole main_v33).slice (win2_2.rect t)).set ↔ _
  rw [View.set_slice_whole, Rect.mem_set_unit]
  exact Iff.rfl

/-- Every entry of the output array is written: row r by point r / 8000. -/
theorem cover2 (i : S3000000x64.Idx) :
    ∃ t : Fin cfg2.N, (cfg2.win 2).flush t = true ∧ i ∈ ((cfg2.win 2).blk t).view.set := by
  have hi0 : (i 0).val < 3000000 := (i 0).isLt
  have hi1 : (i 1).val < 64 := (i 1).isLt
  obtain ⟨t, ht⟩ : ∃ t : Fin cfg2.N, t.val = (i 0).val / 8000 :=
    ⟨⟨(i 0).val / 8000, by show (i 0).val / 8000 < grid2.N; rw [N_2]; omega⟩, rfl⟩
  obtain ⟨e0, e1, e2, e3, e4, e5⟩ := idx_facts2 t
  refine ⟨t, flush2_2 t, ?_⟩
  rw [mem_blk2]
  intro a
  match a with
  | ⟨0, _⟩ =>
    show win2_2.index t (0 : Fin 2) * 8000 ≤ (i 0).val ∧ (i 0).val < win2_2.index t (0 : Fin 2) * 8000 + 8000
    rw [e4, ht]; omega
  | ⟨1, _⟩ =>
    show win2_2.index t (1 : Fin 2) * 64 ≤ (i 1).val ∧ (i 1).val < win2_2.index t (1 : Fin 2) * 64 + 64
    rw [e5]; omega

/-- The output array after the region: the input scaled by the column, as the region found them. -/
theorem final2 (c : Dev nD) : (dat2 V c).arrAt 2 cfg2.N = scaled (V c main_v32) (V c main_v31) :=
  (dat2 V c).arrAt_eq_of_cover 2 (scaled (V c main_v32) (V c main_v31)) (fun t _ => flushed2_eq V c t) (fun i => cover2 i)

end Cert.KernelIdeal.RegionValue

end
-- ==== Proof.Pool3.lean ====
/-
  Region 3 (the pooling kernel over 30 grid points, 5000 rows per point): the [N, 64] array it writes is, entry by
  entry, ((a + b) + c) + d of its four [N, 64] inputs times one constant, whatever the buffers hold when the region
  is entered.

  Point t reads rows 5000 t … 5000 t + 4999 of the four inputs and writes the same rows of the output. The 30 blocks
  tile the output array.
-/
import proofs.«129277_j53566832116067_2_alg».proof.Proof.Gen.KernelIdeal.Frame
import proofs.«129277_j53566832116067_2_alg».proof.Proof.RegionSpec
import Idealize.ShloMosaic.Lib.Pipeline.Value

set_option maxRecDepth 16384

noncomputable section

namespace Cert.KernelIdeal.RegionValue

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))

/-- The body's value at a local index: the four blocks' entries added left to right, times the constant. -/
theorem pay3_at (x0 x1 x2 x3 : Vec F S5000x64 .f32) (j : S5000x64.Idx) :
    k3_pay1 x0 x1 x2 x3 j
      = FloatOps.mulf (FloatOps.addf (FloatOps.addf (FloatOps.addf (x0 j) (x1 j)) (x2 j)) (x3 j)) (Scalar.ofBits .f32 0x3E800000#32) := by
  unfold k3_pay1
  show FloatOps.mulf (FloatOps.addf (FloatOps.addf (FloatOps.addf
      (shapeCast S5000x64 x0 shapeCasts_S5000x64_S5000x64 j) (shapeCast S5000x64 x1 shapeCasts_S5000x64_S5000x64 j))
      (shapeCast S5000x64 x2 shapeCasts_S5000x64_S5000x64 j)) (shapeCast S5000x64 x3 shapeCasts_S5000x64_S5000x64 j))
      (Scalar.ofBits .f32 0x3E800000#32) = _
  simp only [shapeCast_self]

/-- The printed index maps, decided over the grid: every window's block at point t is block (t, 0). -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- What point t writes back is block t of the pooled array. -/
theorem flushed3_eq (c : Dev nD) (t : Fin cfg3.N) :
    (dat3 V c).flushed 4 t = ((cfg3.win 4).blk t).view.read (Elt F) (pooled (V c main_v0) (V c main_v12) (V c main_v24) (V c main_v36)) := by
  show (cfg3.win 4).cut (grid3.coords t) ((dat3 V c).after 4 t) = _
  rw [after3_4]
  unfold out3_4
  rw [View.canon_unit_zero origin2]
  simp only [View.ld_unit_zero (S := S5000x64) origin2]
  obtain ⟨e0, e1, e2, e3, e4, e5, e6, e7, e8, e9⟩ := idx_facts3 t
  funext j
  show k3_pay1 (iblk3 V c 0 t) (iblk3 V c 1 t) (iblk3 V c 2 t) (iblk3 V c 3 t) j
    = pooled (V c main_v0) (V c main_v12) (V c main_v24) (V c main_v36) (((cfg3.win 4).blk t).view.emb j)
  refine (pay3_at (iblk3 V c 0 t) (iblk3 V c 1 t) (iblk3 V c 2 t) (iblk3 V c 3 t) j).trans ?_
  have h0 : ((cfg3.win 0).blk t).view.emb j = ((cfg3.win 4).blk t).view.emb j := by
    funext a; apply Fin.ext
    match a with
    | ⟨0, _⟩ => show win3_0.index t (0 : Fin 2) * 5000 + 1 * (j 0).val = win3_4.index t (0 : Fin 2) * 5000 + 1 * (j 0).val; rw [e0, e8]
    | ⟨1, _⟩ => show win3_0.index t (1 : Fin 2) * 64 + 1 * (j 1).val = win3_4.index t (1 : Fin 2) * 64 + 1 * (j 1).val; rw [e1, e9]
  have h1 : ((cfg3.win 1).blk t).view.emb j = ((cfg3.win 4).blk t).view.emb j := by
    funext a; apply Fin.ext
    match a with
    | ⟨0, _⟩ => show win3_1.index t (0 : Fin 2) * 5000 + 1 * (j 0).val = win3_4.index t (0 : Fin 2) * 5000 + 1 * (j 0).val; rw [e2, e8]
    | ⟨1, _⟩ => show win3_1.index t (1 : Fin 2) * 64 + 1 * (j 1).val = win3_4.index t (1 : Fin 2) * 64 + 1 * (j 1).val; rw [e3, e9]
  have h2 : ((cfg3.win 2).blk t).view.emb j = ((cfg3.win 4).blk t).view.emb j := by
    funext a; apply Fin.ext
    match a with
    | ⟨0, _⟩ => show win3_2.index t (0 : Fin 2) * 5000 + 1 * (j 0).val = win3_4.index t (0 : Fin 2) * 5000 + 1 * (j 0).val; rw [e4, e8]
    | ⟨1, _⟩ => show win3_2.index t (1 : Fin 2) * 64 + 1 * (j 1).val = win3_4.index t (1 : Fin 2) * 64 + 1 * (j 1).val; rw [e5, e9]
  have h3 : ((cfg3.win 3).blk t).view.emb j = ((cfg3.win 4).blk t).view.emb j := by
    funext a; apply Fin.ext
    match a with
    | ⟨0, _⟩ => show win3_3.index t (0 : Fin 2) * 5000 + 1 * (j 0).val = win3_4.index t (0 : Fin 2) * 5000 + 1 * (j 0).val; rw [e6, e8]
    | ⟨1, _⟩ => show win3_3.index t (1 : Fin 2) * 64 + 1 * (j 1).val = win3_4.index t (1 : Fin 2) * 64 + 1 * (j 1).val; rw [e7, e9]
  show FloatOps.mulf (FloatOps.addf (FloatOps.addf (FloatOps.addf
      (V c main_v0 (((cfg3.win 0).blk t).view.emb j)) (V c main_v12 (((cfg3.win 1).blk t).view.emb j)))
      (V c main_v24 (((cfg3.win 2).blk t).view.emb j))) (V c main_v36 (((cfg3.win 3).blk t).view.emb j)))
      (Scalar.ofBits .f32 0x3E800000#32) = _
  rw [h0, h1, h2, h3]

/-- An index of the output array lies in point t's block iff each coordinate lies in the block's range. -/
theorem mem_blk3 (t : Fin cfg3.N) (i : S150000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole main_v37).slice (win3_4.rect t)).set ↔ _
  rw [View.set_slice_whole, Rect.mem_set_unit]
  exact Iff.rfl

/-- Every entry of the output array is written: row r by point r / 5000. -/
theorem cover3 (i : S150000x64.Idx) :
    ∃ t : Fin cfg3.N, (cfg3.win 4).flush t = true ∧ i ∈ ((cfg3.win 4).blk t).view.set := by
  have hi0 : (i 0).val < 150000 := (i 0).isLt
  have hi1 : (i 1).val < 64 := (i 1).isLt
  obtain ⟨t, ht⟩ : ∃ t : Fin cfg3.N, t.val = (i 0).val / 5000 :=
    ⟨⟨(i 0).val / 5000, by show (i 0).val / 5000 < grid3.N; rw [N_3]; omega⟩, rfl⟩
  obtain ⟨e0, e1, e2, e3, e4, e5, e6, e7, e8, e9⟩ := idx_facts3 t
  refine ⟨t, flush3_4 t, ?_⟩
  rw [mem_blk3]
  intro a
  match a with
  | ⟨0, _⟩ =>
    show win3_4.index t (0 : Fin 2) * 5000 ≤ (i 0).val ∧ (i 0).val < win3_4.index t (0 : Fin 2) * 5000 + 5000
    rw [e8, ht]; omega
  | ⟨1, _⟩ =>
    show win3_4.index t (1 : Fin 2) * 64 ≤ (i 1).val ∧ (i 1).val < win3_4.index t (1 : Fin 2) * 64 + 64
    rw [e9]; omega

/-- The output array after the region: the four inputs pooled, as the region found them. -/
theorem final3 (c : Dev nD) :
    (dat3 V c).arrAt 4 cfg3.N = pooled (V c main_v0) (V c main_v12) (V c main_v24) (V c main_v36) :=
  (dat3 V c).arrAt_eq_of_cover 4 (pooled (V c main_v0) (V c main_v12) (V c main_v24) (V c main_v36))
    (fun t _ => flushed3_eq V c t) (fun i => cover3 i)

end Cert.KernelIdeal.RegionValue

end
-- ==== Proof.Fold.lean ====
/-
  What the program's buffers hold at each segment boundary, as functions of the five argument arrays.

  A host stretch applies its operations in order to the contents it finds; a region replaces its output array by
  its closed form of the contents it finds and keeps every other buffer. Reading the fold from the launch memory
  forward: the node table, its gathered rows and the weight column (boundary 1); the first messages (2); the
  first layer, its gathered rows and the weight column again (3); the second messages (4); the second layer and
  its gathered rows (5); the third messages (6); the third layer beside the node table and the first two layers
  (7); the pooled table (8); its two slices (9).
-/
import proofs.«129277_j53566832116067_2_alg».proof.Proof.Gen.KernelIdeal.Frame
import proofs.«129277_j53566832116067_2_alg».proof.Proof.ProgramSpec
import proofs.«129277_j53566832116067_2_alg».proof.Proof.Scale0
import proofs.«129277_j53566832116067_2_alg».proof.Proof.Scale1
import proofs.«129277_j53566832116067_2_alg».proof.Proof.Scale2
import proofs.«129277_j53566832116067_2_alg».proof.Proof.Pool3
import Idealize.ShloMosaic.Lib.StableHlo.Run

set_option maxRecDepth 16384

noncomputable section

namespace Cert.KernelIdeal.RegionValue

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-- The five argument arrays as launched. -/
abbrev A0 : (⟨S3000000, .i32⟩ : BufTy).Contents (Elt F) := m ((c : Thread nD τ).loc main_arg0)
abbrev A1 : (⟨S3000000, .i32⟩ : BufTy).Contents (Elt F) := m ((c : Thread nD τ).loc main_arg1)
abbrev A2 : (⟨S3000000, .f32⟩ : BufTy).Contents (Elt F) := m ((c : Thread nD τ).loc main_arg2)
abbrev A3 : (⟨S100000x64, .f32⟩ : BufTy).Contents (Elt F) := m ((c : Thread nD τ).loc main_arg3)
abbrev A4 : (⟨S50000x64, .f32⟩ : BufTy).Contents (Elt F) := m ((c : Thread nD τ).loc main_arg4)
/-- The node table and the three layers. -/
abbrev X0 : (⟨S150000x64, .f32⟩ : BufTy).Contents (Elt F) := nodeTable (A3 m c) (A4 m c)
abbrev X1 : (⟨S150000x64, .f32⟩ : BufTy).Contents (Elt F) := layer (A0 m c) (A1 m c) (A2 m c) (X0 m c)
abbrev X2 : (⟨S150000x64, .f32⟩ : BufTy).Contents (Elt F) := layer (A0 m c) (A1 m c) (A2 m c) (X1 m c)
abbrev X3 : (⟨S150000x64, .f32⟩ : BufTy).Contents (Elt F) := layer (A0 m c) (A1 m c) (A2 m c) (X2 m c)

/-! ## Boundary 1: after the first host stretch -/

theorem at1_arg0 : W1 m ρ c (Proc.devRef .tc main_arg0) = (A0 m c) := by
  show StableHlo.after hostOps0 (W0 m ρ c) (Proc.devRef .tc main_arg0) = _
  dsimp only [hostOps0]
  after_results
  skip
  all_goals rfl
theorem at1_arg1 : W1 m ρ c (Proc.devRef .tc main_arg1) = (A1 m c) := by
  show StableHlo.after hostOps0 (W0 m ρ c) (Proc.devRef .tc main_arg1) = _
  dsimp only [hostOps0]
  after_results
  skip
  all_goals rfl
theorem at1_arg2 : W1 m ρ c (Proc.devRef .tc main_arg2) = (A2 m c) := by
  show StableHlo.after hostOps0 (W0 m ρ c) (Proc.devRef .tc main_arg2) = _
  dsimp only [hostOps0]
  after_results
  skip
  all_goals rfl
theorem at1_v0 : W1 m ρ c (Proc.devRef .tc main_v0) = (X0 m c) := by
  show StableHlo.after hostOps0 (W0 m ρ c) (Proc.devRef .tc main_v0) = _
  dsimp only [hostOps0]
  after_results
  skip
  all_goals rfl
theorem at1_v7 : W1 m ρ c (Proc.devRef .tc main_v7) = gathered (A1 m c) (X0 m c) := by
  show StableHlo.after hostOps0 (W0 m ρ c) (Proc.devRef .tc main_v7) = _
  dsimp only [hostOps0]
  after_results
  skip
  all_goals rfl
theorem at1_v8 : W1 m ρ c (Proc.devRef .tc main_v8) = weightCol (A2 m c) := by
  show StableHlo.after hostOps0 (W0 m ρ c) (Proc.devRef .tc main_v8) = _
  dsimp only [hostOps0]
  after_results
  skip
  all_goals rfl

/-! ## Boundary 2: after the first scaling region -/

theorem at2_arg0 : W2 m ρ c (Proc.devRef .tc main_arg0) = (A0 m c) :=
  (W2_of_ne m ρ c main_arg0 (by decide)).trans (at1_arg0 m ρ c)
theorem at2_arg1 : W2 m ρ c (Proc.devRef .tc main_arg1) = (A1 m c) :=
  (W2_of_ne m ρ c main_arg1 (by decide)).trans (at1_arg1 m ρ c)
theorem at2_arg2 : W2 m ρ c (Proc.devRef .tc main_arg2) = (A2 m c) :=
  (W2_of_ne m ρ c main_arg2 (by decide)).trans (at1_arg2 m ρ c)
theorem at2_v0 : W2 m ρ c (Proc.devRef .tc main_v0) = (X0 m c) :=
  (W2_of_ne m ρ c main_v0 (by decide)).trans (at1_v0 m ρ c)
theorem at2_v9 : W2 m ρ c (Proc.devRef .tc main_v9) = messages (A1 m c) (A2 m c) (X0 m c) := by
  refine (W2_arr m ρ c 2).trans ((final0 (V1 m ρ) c).trans ?_)
  show scaled (W1 m ρ c (Proc.devRef .tc main_v8)) (W1 m ρ c (Proc.devRef .tc main_v7)) = _
  rw [at1_v8, at1_v7]; rfl

/-! ## Boundary 3: after the second host stretch -/

theorem at3_arg0 : W3 m ρ c (Proc.devRef .tc main_arg0) = (A0 m c) := by
  show StableHlo.after hostOps1 (W2 m ρ c) (Proc.devRef .tc main_arg0) = _
  dsimp only [hostOps1]
  after_results
  exact at2_arg0 m ρ c
theorem at3_arg1 : W3 m ρ c (Proc.devRef .tc main_arg1) = (A1 m c) := by
  show StableHlo.after hostOps1 (W2 m ρ c) (Proc.devRef .tc main_arg1) = _
  dsimp only [hostOps1]
  after_results
  exact at2_arg1 m ρ c
theorem at3_arg2 : W3 m ρ c (Proc.devRef .tc main_arg2) = (A2 m c) := by
  show StableHlo.after hostOps1 (W2 m ρ c) (Proc.devRef .tc main_arg2) = _
  dsimp only [hostOps1]
  after_results
  exact at2_arg2 m ρ c
theorem at3_v0 : W3 m ρ c (Proc.devRef .tc main_v0) = (X0 m c) := by
  show StableHlo.after hostOps1 (W2 m ρ c) (Proc.devRef .tc main_v0) = _
  dsimp only [hostOps1]
  after_results
  exact at2_v0 m ρ c
theorem at3_v12 : W3 m ρ c (Proc.devRef .tc main_v12) = (X1 m c) := by
  show StableHlo.after hostOps1 (W2 m ρ c) (Proc.devRef .tc main_v12) = _
  dsimp only [hostOps1]
  after_results
  rw [at2_arg0, at2_v9]
  all_goals rfl
theorem at3_v19 : W3 m ρ c (Proc.devRef .tc main_v19) = gathered (A1 m c) (X1 m c) := by
  show StableHlo.after hostOps1 (W2 m ρ c) (Proc.devRef .tc main_v19) = _
  dsimp only [hostOps1]
  after_results
  rw [at2_arg0, at2_arg1, at2_v9]
  all_goals rfl
theorem at3_v20 : W3 m ρ c (Proc.devRef .tc main_v20) = weightCol (A2 m c) := by
  show StableHlo.after hostOps1 (W2 m ρ c) (Proc.devRef .tc main_v20) = _
  dsimp only [hostOps1]
  after_results
  rw [at2_arg2]
  all_goals rfl

/-! ## Boundary 4: after the second scaling region -/

theorem at4_arg0 : W4 m ρ c (Proc.devRef .tc main_arg0) = (A0 m c) :=
  (W4_of_ne m ρ c main_arg0 (by decide)).trans (at3_arg0 m ρ c)
theorem at4_arg1 : W4 m ρ c (Proc.devRef .tc main_arg1) = (A1 m c) :=
  (W4_of_ne m ρ c main_arg1 (by decide)).trans (at3_arg1 m ρ c)
theorem at4_arg2 : W4 m ρ c (Proc.devRef .tc main_arg2) = (A2 m c) :=
  (W4_of_ne m ρ c main_arg2 (by decide)).trans (at3_arg2 m ρ c)
theorem at4_v0 : W4 m ρ c (Proc.devRef .tc main_v0) = (X0 m c) :=
  (W4_of_ne m ρ c main_v0 (by decide)).trans (at3_v0 m ρ c)
theorem at4_v12 : W4 m ρ c (Proc.devRef .tc main_v12) = (X1 m c) :=
  (W4_of_ne m ρ c main_v12 (by decide)).trans (at3_v12 m ρ c)
theorem at4_v21 : W4 m ρ c (Proc.devRef .tc main_v21) = messages (A1 m c) (A2 m c) (X1 m c) := by
  refine (W4_arr m ρ c 2).trans ((final1 (V3 m ρ) c).trans ?_)
  show scaled (W3 m ρ c (Proc.devRef .tc main_v20)) (W3 m ρ c (Proc.devRef .tc main_v19)) = _
  rw [at3_v20, at3_v19]; rfl

/-! ## Boundary 5: after the third host stretch -/

theorem at5_arg0 : W5 m ρ c (Proc.devRef .tc main_arg0) = (A0 m c) := by
  show StableHlo.after hostOps2 (W4 m ρ c) (Proc.devRef .tc main_arg0) = _
  dsimp only [hostOps2]
  after_results
  exact at4_arg0 m ρ c
theorem at5_v0 : W5 m ρ c (Proc.devRef .tc main_v0) = (X0 m c) := by
  show StableHlo.after hostOps2 (W4 m ρ c) (Proc.devRef .tc main_v0) = _
  dsimp only [hostOps2]
  after_results
  exact at4_v0 m ρ c
theorem at5_v12 : W5 m ρ c (Proc.devRef .tc main_v12) = (X1 m c) := by
  show StableHlo.after hostOps2 (W4 m ρ c) (Proc.devRef .tc main_v12) = _
  dsimp only [hostOps2]
  after_results
  exact at4_v12 m ρ c
theorem at5_v24 : W5 m ρ c (Proc.devRef .tc main_v24) = (X2 m c) := by
  show StableHlo.after hostOps2 (W4 m ρ c) (Proc.devRef .tc main_v24) = _
  dsimp only [hostOps2]
  after_results
  rw [at4_arg0, at4_v21]
  all_goals rfl
theorem at5_v31 : W5 m ρ c (Proc.devRef .tc main_v31) = gathered (A1 m c) (X2 m c) := by
  show StableHlo.after hostOps2 (W4 m ρ c) (Proc.devRef .tc main_v31) = _
  dsimp only [hostOps2]
  after_results
  rw [at4_arg0, at4_arg1, at4_v21]
  all_goals rfl
theorem at5_v32 : W5 m ρ c (Proc.devRef .tc main_v32) = weightCol (A2 m c) := by
  show StableHlo.after hostOps2 (W4 m ρ c) (Proc.devRef .tc main_v32) = _
  dsimp only [hostOps2]
  after_results
  rw [at4_arg2]
  all_goals rfl

/-! ## Boundary 6: after the third scaling region -/

theorem at6_arg0 : W6 m ρ c (Proc.devRef .tc main_arg0) = (A0 m c) :=
  (W6_of_ne m ρ c main_arg0 (by decide)).trans (at5_arg0 m ρ c)
theorem at6_v0 : W6 m ρ c (Proc.devRef .tc main_v0) = (X0 m c) :=
  (W6_of_ne m ρ c main_v0 (by decide)).trans (at5_v0 m ρ c)
theorem at6_v12 : W6 m ρ c (Proc.devRef .tc main_v12) = (X1 m c) :=
  (W6_of_ne m ρ c main_v12 (by decide)).trans (at5_v12 m ρ c)
theorem at6_v24 : W6 m ρ c (Proc.devRef .tc main_v24) = (X2 m c) :=
  (W6_of_ne m ρ c main_v24 (by decide)).trans (at5_v24 m ρ c)
theorem at6_v33 : W6 m ρ c (Proc.devRef .tc main_v33) = messages (A1 m c) (A2 m c) (X2 m c) := by
  refine (W6_arr m ρ c 2).trans ((final2 (V5 m ρ) c).trans ?_)
  show scaled (W5 m ρ c (Proc.devRef .tc main_v32)) (W5 m ρ c (Proc.devRef .tc main_v31)) = _
  rw [at5_v32, at5_v31]; rfl

/-! ## Boundary 7: after the fourth host stretch -/

theorem at7_v0 : W7 m ρ c (Proc.devRef .tc main_v0) = (X0 m c) := by
  show StableHlo.after hostOps3 (W6 m ρ c) (Proc.devRef .tc main_v0) = _
  dsimp only [hostOps3]
  after_results
  exact at6_v0 m ρ c
theorem at7_v12 : W7 m ρ c (Proc.devRef .tc main_v12) = (X1 m c) := by
  show StableHlo.after hostOps3 (W6 m ρ c) (Proc.devRef .tc main_v12) = _
  dsimp only [hostOps3]
  after_results
  exact at6_v12 m ρ c
theorem at7_v24 : W7 m ρ c (Proc.devRef .tc main_v24) = (X2 m c) := by
  show StableHlo.after hostOps3 (W6 m ρ c) (Proc.devRef .tc main_v24) = _
  dsimp only [hostOps3]
  after_results
  exact at6_v24 m ρ c
theorem at7_v36 : W7 m ρ c (Proc.devRef .tc main_v36) = (X3 m c) := by
  show StableHlo.after hostOps3 (W6 m ρ c) (Proc.devRef .tc main_v36) = _
  dsimp only [hostOps3]
  after_results
  rw [at6_arg0, at6_v33]
  all_goals rfl

/-! ## Boundary 8: after the pooling region -/

theorem at8_v37 : W8 m ρ c (Proc.devRef .tc main_v37) = pooledTable (A0 m c) (A1 m c) (A2 m c) (A3 m c) (A4 m c) := by
  refine (W8_arr m ρ c 4).trans ((final3 (V7 m ρ) c).trans ?_)
  show pooled (W7 m ρ c (Proc.devRef .tc main_v0)) (W7 m ρ c (Proc.devRef .tc main_v12)) (W7 m ρ c (Proc.devRef .tc main_v24)) (W7 m ρ c (Proc.devRef .tc main_v36)) = _
  rw [at7_v0, at7_v12, at7_v24, at7_v36]; rfl

/-! ## Boundary 9: after the last host stretch -/

theorem at9_v38 : W9 m ρ c (Proc.devRef .tc main_v38) = usersOut (A0 m c) (A1 m c) (A2 m c) (A3 m c) (A4 m c) := by
  show StableHlo.after hostOps4 (W8 m ρ c) (Proc.devRef .tc main_v38) = _
  dsimp only [hostOps4]
  after_results
  rw [at8_v37]
  all_goals rfl
theorem at9_v39 : W9 m ρ c (Proc.devRef .tc main_v39) = itemsOut (A0 m c) (A1 m c) (A2 m c) (A3 m c) (A4 m c) := by
  show StableHlo.after hostOps4 (W8 m ρ c) (Proc.devRef .tc main_v39) = _
  dsimp only [hostOps4]
  after_results
  rw [at8_v37]
  all_goals rfl

end Cert.KernelIdeal.RegionValue

end
-- ==== Proof.QuarterLaw.lean ====
/-
  The one algebraic law between the two programs: on the extended reals, dividing by 4 is multiplying by 1/4.

  The kernel multiplies the four-term sum by the constant whose bit pattern is 0x3E800000, which denotes 1/4; the
  reference divides the same sum by the constant 0x40800000, which denotes 4. A quotient by a nonzero real is the
  product with its reciprocal on every extended real, the infinities included, so no finiteness is needed.
-/
import proofs.«129277_j53566832116067_2_alg».proof.Proof.RegionSpec
import Idealize.ShloMosaic.PureOps.Ideal
import Idealize.ShloMosaic.Lib.ValueIdx
import Idealize.ShloMosaic.Lib.Pipeline.Value

noncomputable section

namespace Cert.KernelIdeal.RegionValue

open Cert.KernelIdeal Idealize.ShloMosaic Idealize.SL.Sem

/-- The pattern 0x40800000 denotes the real 4. -/
theorem ofBits_four : Ideal.ofBits .f32 0x40800000#32 = ((4 : ℝ) : EReal) := by
  simp [Ideal.ofBits, Ideal.ieee, -EReal.coe_mul]; norm_num

/-- The pattern 0x3E800000 denotes the real 1/4. -/
theorem ofBits_quarter : Ideal.ofBits .f32 0x3E800000#32 = ((1 / 4 : ℝ) : EReal) := by
  simp [Ideal.ofBits, Ideal.ieee, -EReal.coe_mul]; norm_num

/-- The four-term sum divided by the broadcast constant 4 is the pooled table. -/
theorem div_four_eq_pooled (a b c d : FVec Ideal S150000x64 .f32)
    (h : S_.BroadcastsInDim S150000x64 (![] : Fin 0 → Fin S150000x64.rank)) :
    Host.divf (F := Ideal) (addf (addf (addf a b) c) d)
        (broadcastInDim S150000x64 ![] h (constant (F := Ideal) S_ .f32 0x40800000#32))
      = pooled (F := Ideal) a b c d := by
  funext i
  simp only [pooled, Host.divf, addf, broadcastInDim, constant, Scalar.ofBits, Ideal.hostDivf_def, Ideal.mulf_def, Ideal.addf_def,
    Ideal.ofBits_def, ofBits_four, ofBits_quarter, Ideal.div_coe (by norm_num : (4 : ℝ) ≠ 0)]

end Cert.KernelIdeal.RegionValue

end
-- ==== Proof.RefBridge.lean ====
/-
  The reference's stages are the same function of the five argument arrays.

  The reference computes the node table, and three times: the rows gathered along the edges' sources, their
  product with the edge weights broadcast along the row, and the sum of the products into their destination rows.
  A product with a column broadcast along the row is the row scaled by the column's entry. The reference then adds
  the node table and the three layers left to right and divides by 4, which on the extended reals is the product
  with 1/4; and it returns the same two slices.
-/
import proofs.«129277_j53566832116067_2_alg».proof.Proof.Gen.ReferenceIdeal.Read
import proofs.«129277_j53566832116067_2_alg».proof.Proof.ProgramSpec
import proofs.«129277_j53566832116067_2_alg».proof.Proof.QuarterLaw

noncomputable section

namespace Cert.ReferenceIdeal.RefValue

open Cert.ReferenceIdeal Idealize.ShloMosaic Idealize.SL.Sem
open Cert.KernelIdeal.RegionValue (nodeTable srcCol weightCol dstCol zeroTable gathered messages layer pooledTable usersOut
  itemsOut scaled edgeCol pooled div_four_eq_pooled)

section AnyFloat
variable {F : FTy → Type} [FloatOps F]
variable (x0 x1 : (⟨S3000000, .i32⟩ : BufTy).Contents (Elt F)) (x2 : (⟨S3000000, .f32⟩ : BufTy).Contents (Elt F))
  (x3 : (⟨S100000x64, .f32⟩ : BufTy).Contents (Elt F)) (x4 : (⟨S50000x64, .f32⟩ : BufTy).Contents (Elt F))

/-- The product with a column broadcast along the row is the row scaled by the column's entry. -/
theorem mul_col (h : S3000000x1.BroadcastsInDim S3000000x64 (![0, 1] : Fin 2 → Fin S3000000x64.rank))
    (v : (⟨S3000000x1, .f32⟩ : BufTy).Contents (Elt F)) (g : (⟨S3000000x64, .f32⟩ : BufTy).Contents (Elt F)) :
    mulf (broadcastInDim S3000000x64 ![0, 1] h v) g = scaled (F := F) v g := by
  funext i
  show FloatOps.mulf (broadcastInDim S3000000x64 ![0, 1] h v i) (g i) = FloatOps.mulf (v (edgeCol i)) (g i)
  rw [broadcastInDim_apply _ h v i (edgeCol i) (fun a => match a with
    | ⟨0, _⟩ => by show (i 0).val = if (3000000 : Nat) = 1 then 0 else (i 0).val; rw [if_neg (by decide)]
    | ⟨1, _⟩ => by show 0 = if (1 : Nat) = 1 then 0 else (i 1).val; rw [if_pos rfl])]

/-- The node table. -/
theorem table0 : Read.val_main_v0 (F := F) x3 x4 = nodeTable x3 x4 := rfl

/-- First layer: gathered rows, messages, sum into destinations. -/
theorem gather1 : Read.val_main_v8 (F := F) x1 x3 x4 = gathered x1 (nodeTable x3 x4) := rfl
theorem msgs1 : Read.val_main_v10 (F := F) x1 x2 x3 x4 = messages x1 x2 (nodeTable x3 x4) := by
  unfold Read.val_main_v10 Read.val_main_v9
  rw [mul_col, gather1]; rfl
theorem layer1 : Read.val_main_v13 (F := F) x0 x1 x2 x3 x4 = layer x0 x1 x2 (nodeTable x3 x4) := by
  unfold Read.val_main_v13
  rw [msgs1]; rfl

/-- Second layer. -/
theorem gather2 : Read.val_main_v22 (F := F) x0 x1 x2 x3 x4 = gathered x1 (layer x0 x1 x2 (nodeTable x3 x4)) := by
  unfold Read.val_main_v22
  rw [layer1]; rfl
theorem msgs2 : Read.val_main_v24 (F := F) x0 x1 x2 x3 x4 = messages x1 x2 (layer x0 x1 x2 (nodeTable x3 x4)) := by
  unfold Read.val_main_v24 Read.val_main_v23
  rw [mul_col, gather2]; rfl
theorem layer2 : Read.val_main_v27 (F := F) x0 x1 x2 x3 x4 = layer x0 x1 x2 (layer x0 x1 x2 (nodeTable x3 x4)) := by
  unfold Read.val_main_v27
  rw [msgs2]; rfl

/-- Third layer. -/
theorem gather3 : Read.val_main_v36 (F := F) x0 x1 x2 x3 x4 = gathered x1 (layer x0 x1 x2 (layer x0 x1 x2 (nodeTable x3 x4))) := by
  unfold Read.val_main_v36
  rw [layer2]; rfl
theorem msgs3 : Read.val_main_v38 (F := F) x0 x1 x2 x3 x4 = messages x1 x2 (layer x0 x1 x2 (layer x0 x1 x2 (nodeTable x3 x4))) := by
  unfold Read.val_main_v38 Read.val_main_v37
  rw [mul_col, gather3]; rfl
theorem layer3 : Read.val_main_v41 (F := F) x0 x1 x2 x3 x4
    = layer x0 x1 x2 (layer x0 x1 x2 (layer x0 x1 x2 (nodeTable x3 x4))) := by
  unfold Read.val_main_v41
  rw [msgs3]; rfl

end AnyFloat

section AtIdeal
variable (x0 x1 : (⟨S3000000, .i32⟩ : BufTy).Contents (Elt Ideal)) (x2 : (⟨S3000000, .f32⟩ : BufTy).Contents (Elt Ideal))
  (x3 : (⟨S100000x64, .f32⟩ : BufTy).Contents (Elt Ideal)) (x4 : (⟨S50000x64, .f32⟩ : BufTy).Contents (Elt Ideal))

/-- The sum of the node table and the three layers divided by 4 is the pooled table. -/
theorem mean_eq : Read.val_main_v44 (F := Ideal) x0 x1 x2 x3 x4 = pooledTable x0 x1 x2 x3 x4 := by
  unfold Read.val_main_v44 Read.val_main_v43 Read.val_main_cst_7 Read.val_main_v42 Read.val_main_v28 Read.val_main_v14
  rw [table0, layer1, layer2, layer3]
  exact div_four_eq_pooled _ _ _ _ _

/-- The two results. -/
theorem users_eq : Read.val_main_v45 (F := Ideal) x0 x1 x2 x3 x4 = usersOut x0 x1 x2 x3 x4 := by
  unfold Read.val_main_v45
  rw [mean_eq]; rfl
theorem items_eq : Read.val_main_v46 (F := Ideal) x0 x1 x2 x3 x4 = itemsOut x0 x1 x2 x3 x4 := by
  unfold Read.val_main_v46
  rw [mean_eq]; rfl

end AtIdeal

end Cert.ReferenceIdeal.RefValue

end
-- ==== Proof.lean ====
/-
  Three layers of sparse propagation over a graph with 150000 nodes and 3000000 edges, pooled with the input table,
  against the same computation written with whole-array operations.

  Both programs build the node table (users' rows, then items' rows) and apply three times: gather the rows along
  the edges' sources, scale row e by vals[e], and add the products into their destination rows of a table of zeros.
  The kernel program does the scaling in a pipelined kernel over 375 blocks of 8000 edges, where the reference
  multiplies by the weights broadcast along the row: the same product, entry by entry. It then computes
  ((x0 + x1) + x2) + x3 times the constant 1/4 in a pipelined kernel over 30 blocks of 5000 rows, where the reference
  divides the same sum by 4: on the extended reals a quotient by a nonzero real is the product with its reciprocal,
  at the infinities too, so the two agree on every input and the precondition is never opened. Both return the first
  100000 rows and the last 50000 rows.

  The kernel program is nine segments: five stretches of whole-array operations and four kernel regions between
  them. Its run ends with every buffer at the last boundary's contents; those are a fold from the launch memory in
  which a stretch applies its operations in order and a region replaces its output array by its blocks' union,
  which is one whole-array function of the arrays the region reads because the blocks tile the array and every
  block is that function restricted to the block. Reading the fold from the arguments forward gives the two
  results as one function of the five arguments, and the reference's composed term is the same function. No
  operation was rewritten when the kernel program was idealized, so that conjunct is the trivial one; the three
  frames are the programs' runs with the results dropped.
-/
import proofs.«129277_j53566832116067_2_alg».proof.Defs
import proofs.«129277_j53566832116067_2_alg».proof.Proof.Gen.Kernel
import proofs.«129277_j53566832116067_2_alg».proof.Proof.Gen.Kernel.Skeleton
import proofs.«129277_j53566832116067_2_alg».proof.Proof.Gen.Kernel.Launch
import proofs.«129277_j53566832116067_2_alg».proof.Proof.Gen.Kernel.Points
import proofs.«129277_j53566832116067_2_alg».proof.Proof.Gen.Kernel.Frame
import proofs.«129277_j53566832116067_2_alg».proof.Proof.Gen.KernelIdeal
import proofs.«129277_j53566832116067_2_alg».proof.Proof.Gen.KernelIdeal.Skeleton
import proofs.«129277_j53566832116067_2_alg».proof.Proof.Gen.KernelIdeal.Launch
import proofs.«129277_j53566832116067_2_alg».proof.Proof.Gen.KernelIdeal.Points
import proofs.«129277_j53566832116067_2_alg».proof.Proof.Gen.KernelIdeal.Frame
import proofs.«129277_j53566832116067_2_alg».proof.Proof.Gen.ReferenceIdeal
import proofs.«129277_j53566832116067_2_alg».proof.Proof.Gen.ReferenceIdeal.Run
import proofs.«129277_j53566832116067_2_alg».proof.Proof.Gen.ReferenceIdeal.Read
import proofs.«129277_j53566832116067_2_alg».proof.Proof.Gen.Pre_finite_inputs
import proofs.«129277_j53566832116067_2_alg».proof.Proof.KernelRun
import proofs.«129277_j53566832116067_2_alg».proof.Proof.Fold
import proofs.«129277_j53566832116067_2_alg».proof.Proof.RefBridge
import Idealize.ShloMosaic.Adequacy
import Idealize.ShloMosaic.Init

noncomputable section

namespace Cert.Proof

open Idealize.ShloMosaic Idealize.ShloMosaic.TcCoe Idealize.SL.Sem
open Cert.KernelIdeal.RegionValue (usersOut itemsOut A0 A1 A2 A3 A4 at9_v38 at9_v39)

theorem frame_kernel : Cert.frame_Kernel := fun m ρ _ => Cert.Kernel.Gen.frame m ρ

theorem frame_kernelIdeal : Cert.frame_KernelIdeal := fun m ρ _ => Cert.KernelIdeal.Gen.frame m ρ

/-- The reference's run with its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the users' and the items' rows of the pooled table of the same five arguments. -/
theorem algebraic : Cert.algebraic_KernelIdeal_ReferenceIdeal := by
  intro m ρ m' ρ' _ hagree
  refine ⟨fun c => usersOut (A0 m c) (A1 m c) (A2 m c) (A3 m c) (A4 m c),
    fun c => itemsOut (A0 m c) (A1 m c) (A2 m c) (A3 m c) (A4 m c), ?_, ?_⟩
  · exact (θ_run Cert.KernelIdeal.defs _ _).mono
      (fun r h c => ⟨(h c).1.trans (at9_v38 m ρ c), (h c).2.1.trans (at9_v39 m ρ c), (h c).2.2⟩)
      (Cert.KernelIdeal.RunValue.run_last (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨h0, h1, h2, h3, h4⟩ := hagree c
      refine ((Cert.ReferenceIdeal.Read.val_main_v45_eq m' c).trans (Cert.ReferenceIdeal.RefValue.users_eq _ _ _ _ _)).trans ?_
      rw [h0, h1, h2, h3, h4]
    · obtain ⟨h0, h1, h2, h3, h4⟩ := hagree c
      refine ((Cert.ReferenceIdeal.Read.val_main_v46_eq m' c).trans (Cert.ReferenceIdeal.RefValue.items_eq _ _ _ _ _)).trans ?_
      rw [h0, h1, h2, h3, h4]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
